-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x64 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S500000x128 .f32) (main_arg1 : FVec F S500000 .f32) (main_arg2 : IVec S500000 32) (main_arg3 : FVec F S64x128 .f32) (main_arg4 : FVec F S64 .f32) (main_arg5 : FVec F S1x64 .f32) (main_arg6 : FVec F S1 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S500000x128 : Shape := ⟨2, ![500000, 128]⟩
abbrev S500000 : Shape := ⟨1, ![500000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S16384x128 : Shape := ⟨2, ![16384, 128]⟩
abbrev S16384 : Shape := ⟨1, ![16384]⟩
abbrev S128x64 : Shape := ⟨2, ![128, 64]⟩
abbrev S16384x64 : Shape := ⟨2, ![16384, 64]⟩
abbrev S_ : Shape := ⟨0, ![]⟩
abbrev S500000x1 : Shape := ⟨2, ![500000, 1]⟩

abbrev nBuf : Space → Nat
  | .hbm => 12
  | .vmem => 10
  | .smem => 0
  | _ => 0

abbrev bufTy : (tb : Table) → Fin (tcTables nBuf tb) → BufTy
  | .hbm, ⟨0, _⟩ => ⟨S500000x128, .f32⟩
  | .hbm, ⟨1, _⟩ => ⟨S500000, .f32⟩
  | .hbm, ⟨2, _⟩ => ⟨S500000, .i32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S500000, .f32⟩
  | .hbm, ⟨8, _⟩ => ⟨S_, .f32⟩
  | .hbm, ⟨9, _⟩ => ⟨S16384, .f32⟩
  | .hbm, ⟨10, _⟩ => ⟨S500000x1, .i32⟩
  | .hbm, ⟨11, _⟩ => ⟨S16384, .f32⟩
  | .local _ .vmem, ⟨0, _⟩ => ⟨S16384x128, .f32⟩
  | .local _ .vmem, ⟨1, _⟩ => ⟨S16384x128, .f32⟩
  | .local _ .vmem, ⟨2, _⟩ => ⟨S16384, .f32⟩
  | .local _ .vmem, ⟨3, _⟩ => ⟨S16384, .f32⟩
  | .local _ .vmem, ⟨4, _⟩ => ⟨S64x128, .f32⟩
  | .local _ .vmem, ⟨5, _⟩ => ⟨S64, .f32⟩
  | .local _ .vmem, ⟨6, _⟩ => ⟨S1x64, .f32⟩
  | .local _ .vmem, ⟨7, _⟩ => ⟨S1, .f32⟩
  | .local _ .vmem, ⟨8, _⟩ => ⟨S16384, .f32⟩
  | .local _ .vmem, ⟨9, _⟩ => ⟨S16384, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S16384x128_S16384x128_0_0 : ∀ a, (![0, 0] : Fin 2 → Nat) a + S16384x128.size a ≤ S16384x128.size a
  h_S16384x128 : 0 < S16384x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  inb_S1x64_S1x64_0_0 : ∀ a, (![0, 0] : Fin 2 → Nat) a + S1x64.size a ≤ S1x64.size a
  h_S1x64 : 0 < S1x64.numel
  shapeCasts_S1x64_S64 : S1x64.ShapeCasts S64
  reduces_S16384x64_S16384 : S16384x64.Reduces [1] S16384
  inb_S1_S1_0 : ∀ a, (![0] : Fin 1 → Nat) a + S1.size a ≤ S1.size a
  h_S1 : 0 < S1.numel
  inpos_S1_p0 : ∀ a, (![0] : Fin 1 → Nat) a < S1.size a
  inb_S16384_S16384_0 : ∀ a, (![0] : Fin 1 → Nat) a + S16384.size a ≤ S16384.size a
  h_S16384 : 0 < S16384.numel
  bcast_S_S16384 : S_.BroadcastsInDim S16384 (![] : Fin 0 → Fin S16384.rank)
  bcast_S500000_S500000x1_0 : S500000.BroadcastsInDim S500000x1 (![0] : Fin 1 → Fin S500000x1.rank)
  dot_S16384x128_S128x64_S16384x64_1_0_0_1_n_n_wf : DotDims.WF S16384x128 S128x64 S16384x64 [1] [0] [0] [1] [] []
  scatter_S16384_S500000x1_S500000_n_0_0_1_wf : ScatterDims.WF S16384 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x128.size a < S500000x128.size a
  hwx0_0 : ∀ i : grid0.Coords, EltTy.bits .f32 = 32 ∨ (Rect.unit (s := S500000x128) (fun a => cc0_transform_0 i a * S16384x128.size a) (fun a => (Pipeline.Clip.of (cc0_transform_0 i a) (S16384x128.size a) (S500000x128.size a)).extent (S16384x128.size a)) fun a => Pipeline.Clip.inb (Pipeline.Clip.ok_of (hstart0_0 i a))).WholeWords (EltTy.packing .f32)
  hwxs0_0 : ∀ i : grid0.Coords, EltTy.bits .f32 = 32 ∨ (Rect.unit (s := S16384x128) (fun _ => 0) (fun a => (Pipeline.Clip.of (cc0_transform_0 i a) (S16384x128.size a) (S500000x128.size a)).extent (S16384x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384.size a < S500000.size a
  hwx0_1 : ∀ i : grid0.Coords, EltTy.bits .f32 = 32 ∨ (Rect.unit (s := S500000) (fun a => cc0_transform_1 i a * S16384.size a) (fun a => (Pipeline.Clip.of (cc0_transform_1 i a) (S16384.size a) (S500000.size a)).extent (S16384.size a)) fun a => Pipeline.Clip.inb (Pipeline.Clip.ok_of (hstart0_1 i a))).WholeWords (EltTy.packing .f32)
  hwxs0_1 : ∀ i : grid0.Coords, EltTy.bits .f32 = 32 ∨ (Rect.unit (s := S16384) (fun _ => 0) (fun a => (Pipeline.Clip.of (cc0_transform_1 i a) (S16384.size a) (S500000.size a)).extent (S16384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S16384.size a < S500000.size a
  hwx0_6 : ∀ i : grid0.Coords, EltTy.bits .f32 = 32 ∨ (Rect.unit (s := S500000) (fun a => cc0_transform_6 i a * S16384.size a) (fun a => (Pipeline.Clip.of (cc0_transform_6 i a) (S16384.size a) (S500000.size a)).extent (S16384.size a)) fun a => Pipeline.Clip.inb (Pipeline.Clip.ok_of (hstart0_6 i a))).WholeWords (EltTy.packing .f32)
  hwxs0_6 : ∀ i : grid0.Coords, EltTy.bits .f32 = 32 ∨ (Rect.unit (s := S16384) (fun _ => 0) (fun a => (Pipeline.Clip.of (cc0_transform_6 i a) (S16384.size a) (S500000.size a)).extent (S16384.size a)) fun a => (Nat.zero_add _).trans_le (Pipeline.Clip.extent_le (Pipeline.Clip.ok_of (hstart0_6 i a)))).WholeWords (EltTy.packing .f32)

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def scatter_S16384_S500000x1_S500000_n_0_0_1 : ScatterDims S16384 S500000x1 S500000 where
  updateWindowDims := []
  insertedWindowDims := [0]
  scatterDimsToOperandDims := [0]
  indexVectorDim := 1
  wf := scatter_S16384_S500000x1_S500000_n_0_0_1_wf

abbrev win0_0 : Pipeline.Window sig grid0 :=
  Pipeline.Window.ofSpecClip (Memref.whole main_arg0) S16384x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S16384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v0) S16384.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S500000x128 : Shape := ⟨2, ![500000, 128]⟩
abbrev S500000 : Shape := ⟨1, ![500000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S500000x64 : Shape := ⟨2, ![500000, 64]⟩
abbrev S_ : Shape := ⟨0, ![]⟩
abbrev S500000x1 : Shape := ⟨2, ![500000, 1]⟩
abbrev S1x1 : Shape := ⟨2, ![1, 1]⟩
abbrev S16384 : Shape := ⟨1, ![16384]⟩

abbrev nBuf : Space → Nat
  | .hbm => 30
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .f32⟩
  | .hbm, ⟨2, _⟩ => ⟨S500000, .i32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S500000x64, .f32⟩
  | .hbm, ⟨8, _⟩ => ⟨S1x64, .f32⟩
  | .hbm, ⟨9, _⟩ => ⟨S500000x64, .f32⟩
  | .hbm, ⟨10, _⟩ => ⟨S500000x64, .f32⟩
  | .hbm, ⟨11, _⟩ => ⟨S500000x64, .f32⟩
  | .hbm, ⟨12, _⟩ => ⟨S500000x64, .f32⟩
  | .hbm, ⟨13, _⟩ => ⟨S_, .f32⟩
  | .hbm, ⟨14, _⟩ => ⟨S500000x64, .f32⟩
  | .hbm, ⟨15, _⟩ => ⟨S500000x64, .f32⟩
  | .hbm, ⟨16, _⟩ => ⟨S_, .f32⟩
  | .hbm, ⟨17, _⟩ => ⟨S500000x64, .f32⟩
  | .hbm, ⟨18, _⟩ => ⟨S500000x64, .f32⟩
  | .hbm, ⟨19, _⟩ => ⟨S500000x64, .f32⟩
  | .hbm, ⟨20, _⟩ => ⟨S500000x1, .f32⟩
  | .hbm, ⟨21, _⟩ => ⟨S1x1, .f32⟩
  | .hbm, ⟨22, _⟩ => ⟨S500000x1, .f32⟩
  | .hbm, ⟨23, _⟩ => ⟨S500000x1, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S16384, .f32⟩
  | .hbm, ⟨28, _⟩ => ⟨S500000x1, .i32⟩
  | .hbm, ⟨29, _⟩ => ⟨S16384, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  bcast_S_S16384 : S_.BroadcastsInDim S16384 (![] : Fin 0 → Fin S16384.rank)
  bcast_S500000_S500000x1_0 : S500000.BroadcastsInDim S500000x1 (![0] : Fin 1 → Fin S500000x1.rank)
  dot_S500000x128_S64x128_S500000x64_1_1_0_0_n_n_wf : DotDims.WF S500000x128 S64x128 S500000x64 [1] [1] [0] [0] [] []
  dot_S500000x64_S1x64_S500000x1_1_1_0_0_n_n_wf : DotDims.WF S500000x64 S1x64 S500000x1 [1] [1] [0] [0] [] []
  scatter_S16384_S500000x1_S500000_n_0_0_1_wf : ScatterDims.WF S16384 S500000x1 S500000 [] [0] [0] 1

variable [Facts₀]

def dot_S500000x128_S64x128_S500000x64_1_1_0_0_n_n : DotDims S500000x128 S64x128 S500000x64 where
  lhsContracting := [1]
  rhsContracting := [1]
  lhsNonContracting := [0]
  rhsNonContracting := [0]
  lhsBatch := []
  rhsBatch := []
  wf := dot_S500000x128_S64x128_S500000x64_1_1_0_0_n_n_wf
def dot_S500000x64_S1x64_S500000x1_1_1_0_0_n_n : DotDims S500000x64 S1x64 S500000x1 where
  lhsContracting := [1]
  rhsContracting := [1]
  lhsNonContracting := [0]
  rhsNonContracting := [0]
  lhsBatch := []
  rhsBatch := []
  wf := dot_S500000x64_S1x64_S500000x1_1_1_0_0_n_n_wf
def scatter_S16384_S500000x1_S500000_n_0_0_1 : ScatterDims S16384 S500000x1 S500000 where
  updateWindowDims := []
  insertedWindowDims := [0]
  scatterDimsToOperandDims := [0]
  indexVectorDim := 1
  wf := scatter_S16384_S500000x1_S500000_n_0_0_1_wf

class Facts : Prop extends Facts₀ where

variable [Facts]
-- ==== Proof.KernelTile.lean ====
/-
  The word-level node-energy kernel's body, run once on whole staging buffers.

  One call of the body reads a tile of 16384 node rows (128 features each), the tile's 16384 incoming atomic
  energies, the first layer's weights (64 x 128) and bias (64), the second layer's weights (1 x 64) and bias (1),
  and overwrites the whole 16384-entry output tile with ONE value: the pure function `k0_pay1` of the six
  things it read. Nothing else is written, so after the call the six input buffers hold what they held and the
  output buffer holds that value, whatever it held before (the body also loads the output tile once, and never
  uses what it loaded).
-/
import proofs.«163737_j44057774522749_1_alg».proof.Proof.Gen.Kernel.Frame
import proofs.«163737_j44057774522749_1_alg».proof.Proof.Gen.Kernel.Skeleton
import Idealize.ShloMosaic.Lib.Pipeline.Kit
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S16384x128 := Rect.unit (s := S16384x128) ![0, 0] S16384x128.size inb_S16384x128_S16384x128_0_0
abbrev rE : Rect S16384 := Rect.unit (s := S16384) ![0] S16384.size inb_S16384_S16384_0
abbrev rW1 : Rect S64x128 := Rect.unit (s := S64x128) ![0, 0] S64x128.size inb_S64x128_S64x128_0_0
abbrev rB1 : Rect S64 := Rect.unit (s := S64) ![0] S64.size inb_S64_S64_0
abbrev rW2 : Rect S1x64 := Rect.unit (s := S1x64) ![0, 0] S1x64.size inb_S1x64_S1x64_0_0
abbrev rB2 : Rect S1 := Rect.unit (s := S1) ![0] S1.size inb_S1_S1_0

/-- What the output tile's buffer holds after the body: its one store, of the body's value of the six loads. -/
def tileOut (x : Vec F S16384x128 .f32) (e : Vec F S16384 .f32) (w1 : Vec F S64x128 .f32) (b1 : Vec F S64 .f32)
    (w2 : Vec F S1x64 .f32) (b2 : Vec F S1 .f32) : Vec F S16384 .f32 :=
  View.canon [⟨rE, k0_pay1 (View.ld x rX) (View.ld w1 rW1) (View.ld b1 rB1) (View.ld w2 rW2) (View.ld b2 rB2) (View.ld e rE)⟩]

/-- The one store covers the output tile. -/
theorem tileOut_cover (p0 : Vec F S16384 .f32) (y : S16384.Idx) :
    ∃ pc ∈ ([⟨rE, p0⟩] : List (View.Piece (Elt F) S16384 .f32)), y ∈ pc.1.set :=
  View.cover_of_tiled [⟨rE, p0⟩] S16384.size (by rfl) y

set_option maxHeartbeats 4000000 in
/-- The body's triple: from the seven whole staging buffers — the six inputs at any contents, the output at
    anything — the body runs to the inputs unchanged and the output at `tileOut` of the inputs. -/
theorem sound_kernel (c : Dev nD) (E : Set ℕ) (i : grid0.Coords)
    (a1 : Memref sig .tc .vmem S16384x128 .f32) (h1 : a1.IsWhole) (a2 : Memref sig .tc .vmem S16384 .f32) (h2 : a2.IsWhole)
    (a3 : Memref sig .tc .vmem S64x128 .f32) (h3 : a3.IsWhole) (a4 : Memref sig .tc .vmem S64 .f32) (h4 : a4.IsWhole)
    (a5 : Memref sig .tc .vmem S1x64 .f32) (h5 : a5.IsWhole) (a6 : Memref sig .tc .vmem S1 .f32) (h6 : a6.IsWhole)
    (a7 : Memref sig .tc .vmem S16384 .f32) (h7 : a7.IsWhole)
    (x : Vec F S16384x128 .f32) (e : Vec F S16384 .f32) (w1 : Vec F S64x128 .f32) (b1 : Vec F S64 .f32)
    (w2 : Vec F S1x64 .f32) (b2 : Vec F S1 .f32) (K : PUnit → sProp 𝕄) :
    iprop(owns (c : Thread nD τ) a1 fullShare x ∗ owns (c : Thread nD τ) a2 fullShare e ∗ owns (c : Thread nD τ) a3 fullShare w1
        ∗ owns (c : Thread nD τ) a4 fullShare b1 ∗ owns (c : Thread nD τ) a5 fullShare w2 ∗ owns (c : Thread nD τ) a6 fullShare b2
        ∗ (∃ d, owns (c : Thread nD τ) a7 fullShare d)
        ∗ (iprop(owns (c : Thread nD τ) a1 fullShare x ∗ owns (c : Thread nD τ) a2 fullShare e ∗ owns (c : Thread nD τ) a3 fullShare w1
            ∗ owns (c : Thread nD τ) a4 fullShare b1 ∗ owns (c : Thread nD τ) a5 fullShare w2 ∗ owns (c : Thread nD τ) a6 fullShare b2
            ∗ owns (c : Thread nD τ) a7 fullShare (tileOut x e w1 b1 w2 b2)) -∗ K ⟨⟩))
      ⊢ wp frame (wpE (defs₀ (F := F)) Variants.none c none) E (cc0__mlp_kernel i a1 h1 a2 h2 a3 h3 a4 h4 a5 h5 a6 h6 a7 h7) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (tileOut_cover _)

end Cert.Kernel.Tile

end
-- ==== Proof.KernelRun.lean ====
/-
  The word-level kernel's frame.

  Nothing is claimed of what the word-level kernel computes, only that it runs to the end, faults nowhere and leaves
  its arguments as they were. So the output tile is forgotten: at each of the 31 points the body is handed the output
  tile's buffer at anything and hands it back at something (the body's triple says what, and nothing reads it). The
  two tiled inputs are found as fetched — the array's rows inside the array, anything past its end — and left so; the
  four parameter arrays are found whole and left so. The lines after the call write only their own result buffers.
-/
import proofs.«163737_j44057774522749_1_alg».proof.Proof.KernelTile
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Run

open Cert.Kernel Cert.Kernel.Gen Cert.Kernel.Tile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window whose contents are not named: the output tile. -/
def forgets : Fin 7 → Bool := fun w => w.val == 6

def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t
    = win0_0.fill (grid0.coords t) (fun _ => Scalar.ofBits .f32 0#32) (iblk m c 0 t) := by dsimp only [dats]
theorem after0_1 (c : Dev nD) (t : Fin cfg0.N) : (dats m 0 c).after 1 t
    = win0_1.fill (grid0.coords t) (fun _ => Scalar.ofBits .f32 0#32) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) :
    (dats m 0 c).before 0 t d = win0_0.fill (grid0.coords t) d (iblk m c 0 t) := by
  rw [(dats m 0 c).before_fetched 0 t (fetch0_0 t) d]; rfl
theorem before0_1 (c : Dev nD) (t : Fin cfg0.N) (d) :
    (dats m 0 c).before 1 t d = win0_1.fill (grid0.coords t) d (iblk m c 1 t) := by
  rw [(dats m 0 c).before_fetched 1 t (fetch0_1 t) d]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := F) c Set.univ (grid0.coords t) _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0; rw [win0_0.cut_fill]; iexact H0
  isplitl [H1]
  · iexists d1; rw [win0_1.cut_fill]; iexact H1
  isplitl [H2]; · iexact H2
  isplitl [H3]; · iexact H3
  isplitl [H4]; · iexact H4
  isplitl [H5]; · iexact H5
  iexists _; iexact H6

theorem body_obligation (c : Dev nD) : BodyObligationLoose (dats (F := F) m 0 c) (defs₀ (F := F)) Variants.none () Set.univ forgets := fun t => by
  rw [bigSep_W0, bigSep_W0]
  exact sound_body m c t

/-! ## The run and the frame -/

/-- The buffers the lines after the call may write: any but the segment-index argument, which no line writes. -/
def tailWrites : Finset (Ref sig .tc) := Finset.univ.erase main_arg2

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  refine Finset.mem_erase.mpr ⟨fun e => ?_, Finset.mem_univ _⟩
  subst e
  simp only [List.mem_cons, List.mem_nil_iff, or_false] at hops
  rcases hops with rfl
  simp only [hostOps1, List.mem_cons, List.mem_nil_iff, or_false] at hop
  rcases hop with rfl | rfl | rfl | rfl
  all_goals
    simp only [StableHlo.nullary_writes, StableHlo.unary_writes, StableHlo.ternary_writes, Finset.mem_singleton] at hb
    exact StableHlo.devRef_ne_of_ne (by decide) hb

set_option backward.isDefEq.respectTransparency.types false in
theorem run_main : θ_run defs (onTc (τ := τ) (main (F := F))) (s₀ m ρ)
    (Pipeline.RDat.FramePostR (cfgs 0) (fun c => (dats m 0 c).toRForget forgets) tailWrites (fun c b => V0 m c (Proc.devRef .tc b))) :=
  Pipeline.RDat.θ_run_frame_around_T cfgs (0 : Fin 1) launch0 defs₀ Variants.none (fun c => (dats m 0 c).toRForget forgets) tailWrites m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: every argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 1 rfl _) _) ((h c).1 1)).trans ((A_eq m c 1).trans (V_main_arg1 m c)),
     ((h c).2 main_arg2 (Finset.mem_sdiff.mpr ⟨Pipeline.mem_restRefs_of main_arg2 (by decide) (by decide), Finset.notMem_erase _ _⟩)).trans (V_main_arg2 m c),
     (Eq.mp (congrFun (((dats m 0 c).toRForget forgets).ArrAt_in 2 rfl _) _) ((h c).1 2)).trans ((A_eq m c 2).trans (V_main_arg3 m c)),
     (Eq.mp (congrFun (((dats m 0 c).toRForget forgets).ArrAt_in 3 rfl _) _) ((h c).1 3)).trans ((A_eq m c 3).trans (V_main_arg4 m c)),
     (Eq.mp (congrFun (((dats m 0 c).toRForget forgets).ArrAt_in 4 rfl _) _) ((h c).1 4)).trans ((A_eq m c 4).trans (V_main_arg5 m c)),
     (Eq.mp (congrFun (((dats m 0 c).toRForget forgets).ArrAt_in 5 rfl _) _) ((h c).1 5)).trans ((A_eq m c 5).trans (V_main_arg6 m c))⟩)
    (run_main m ρ)

end Cert.Kernel.Run

end
-- ==== Proof.KernelIdealTile.lean ====
/-
  The node-energy kernel's body, run once on whole staging buffers.

  One call of the body reads a tile of 16384 node rows (128 features each), the tile's 16384 incoming atomic
  energies, the first layer's weights (64 x 128) and bias (64), the second layer's weights (1 x 64) and bias (1),
  and overwrites the whole 16384-entry output tile with ONE value: the pure function `k0_pay1` of the six
  things it read. Nothing else is written, so after the call the six input buffers hold what they held and the
  output buffer holds that value, whatever it held before (the body also loads the output tile once, and never
  uses what it loaded).
-/
import proofs.«163737_j44057774522749_1_alg».proof.Proof.Gen.KernelIdeal.Frame
import proofs.«163737_j44057774522749_1_alg».proof.Proof.Gen.KernelIdeal.Skeleton
import Idealize.ShloMosaic.Lib.Pipeline.Kit
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rX : Rect S16384x128 := Rect.unit (s := S16384x128) ![0, 0] S16384x128.size inb_S16384x128_S16384x128_0_0
abbrev rE : Rect S16384 := Rect.unit (s := S16384) ![0] S16384.size inb_S16384_S16384_0
abbrev rW1 : Rect S64x128 := Rect.unit (s := S64x128) ![0, 0] S64x128.size inb_S64x128_S64x128_0_0
abbrev rB1 : Rect S64 := Rect.unit (s := S64) ![0] S64.size inb_S64_S64_0
abbrev rW2 : Rect S1x64 := Rect.unit (s := S1x64) ![0, 0] S1x64.size inb_S1x64_S1x64_0_0
abbrev rB2 : Rect S1 := Rect.unit (s := S1) ![0] S1.size inb_S1_S1_0

/-- What the output tile's buffer holds after the body: its one store, of the body's value of the six loads. -/
def tileOut (x : Vec F S16384x128 .f32) (e : Vec F S16384 .f32) (w1 : Vec F S64x128 .f32) (b1 : Vec F S64 .f32)
    (w2 : Vec F S1x64 .f32) (b2 : Vec F S1 .f32) : Vec F S16384 .f32 :=
  View.canon [⟨rE, k0_pay1 (View.ld x rX) (View.ld w1 rW1) (View.ld b1 rB1) (View.ld w2 rW2) (View.ld b2 rB2) (View.ld e rE)⟩]

/-- The one store covers the output tile. -/
theorem tileOut_cover (p0 : Vec F S16384 .f32) (y : S16384.Idx) :
    ∃ pc ∈ ([⟨rE, p0⟩] : List (View.Piece (Elt F) S16384 .f32)), y ∈ pc.1.set :=
  View.cover_of_tiled [⟨rE, p0⟩] S16384.size (by rfl) y

set_option maxHeartbeats 4000000 in
/-- The body's triple: from the seven whole staging buffers — the six inputs at any contents, the output at
    anything — the body runs to the inputs unchanged and the output at `tileOut` of the inputs. -/
theorem sound_kernel (c : Dev nD) (E : Set ℕ) (i : grid0.Coords)
    (a1 : Memref sig .tc .vmem S16384x128 .f32) (h1 : a1.IsWhole) (a2 : Memref sig .tc .vmem S16384 .f32) (h2 : a2.IsWhole)
    (a3 : Memref sig .tc .vmem S64x128 .f32) (h3 : a3.IsWhole) (a4 : Memref sig .tc .vmem S64 .f32) (h4 : a4.IsWhole)
    (a5 : Memref sig .tc .vmem S1x64 .f32) (h5 : a5.IsWhole) (a6 : Memref sig .tc .vmem S1 .f32) (h6 : a6.IsWhole)
    (a7 : Memref sig .tc .vmem S16384 .f32) (h7 : a7.IsWhole)
    (x : Vec F S16384x128 .f32) (e : Vec F S16384 .f32) (w1 : Vec F S64x128 .f32) (b1 : Vec F S64 .f32)
    (w2 : Vec F S1x64 .f32) (b2 : Vec F S1 .f32) (K : PUnit → sProp 𝕄) :
    iprop(owns (c : Thread nD τ) a1 fullShare x ∗ owns (c : Thread nD τ) a2 fullShare e ∗ owns (c : Thread nD τ) a3 fullShare w1
        ∗ owns (c : Thread nD τ) a4 fullShare b1 ∗ owns (c : Thread nD τ) a5 fullShare w2 ∗ owns (c : Thread nD τ) a6 fullShare b2
        ∗ (∃ d, owns (c : Thread nD τ) a7 fullShare d)
        ∗ (iprop(owns (c : Thread nD τ) a1 fullShare x ∗ owns (c : Thread nD τ) a2 fullShare e ∗ owns (c : Thread nD τ) a3 fullShare w1
            ∗ owns (c : Thread nD τ) a4 fullShare b1 ∗ owns (c : Thread nD τ) a5 fullShare w2 ∗ owns (c : Thread nD τ) a6 fullShare b2
            ∗ owns (c : Thread nD τ) a7 fullShare (tileOut x e w1 b1 w2 b2)) -∗ K ⟨⟩))
      ⊢ wp frame (wpE (defs₀ (F := F)) Variants.none c none) E (cc0__mlp_kernel i a1 h1 a2 h2 a3 h3 a4 h4 a5 h5 a6 h6 a7 h7) K := by
  simp only [cc0__mlp_kernel_eq_skeleton]; unfold cc0__mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (tileOut_cover _)

end Cert.KernelIdeal.Tile

end
-- ==== Proof.NodeEnergy.lean ====
/-
  The per-node energy as ONE function on the extended reals.

  A node is a row of 128 features. Its hidden pre-activations are the 64 inner products of the row with the rows
  of the first weight matrix, each plus its bias; each passes through the SiLU gate z * sigma(z), sigma the logistic
  function; the 64 gated values are weighted by the second layer's single row and summed, the second bias is
  added, and the result is added to the node's incoming energy:

      e_n + ( (sum_h silu(sum_d x_{n,d} W1_{h,d} + b1_h) * W2_{0,h}) + b2_0 ).

  The grouping of the three additions is the one written here; nothing is re-associated, so no finiteness of the
  inputs is ever needed.
-/
import Idealize.ShloMosaic.PureOps.Ideal
import Idealize.ShloMosaic.Lib.ValueIdx

noncomputable section

namespace NodeEnergy

open Idealize.ShloMosaic Idealize.ShloMosaic.ValueIdx

/-- The single-precision pattern of 1.0 denotes the extended real 1. -/
theorem ofBits_one : Ideal.ofBits .f32 0x3F800000#32 = 1 := by
  simp [Ideal.ofBits, Ideal.ieee, -EReal.coe_mul]; norm_num

/-- One hidden pre-activation of a row `xr`: its inner product with row `h` of the first weights, plus that bias. -/
def preact (xr : Fin 128 → EReal) (w1 : (⟨2, ![64, 128]⟩ : Shape).Idx → EReal) (b1 : (⟨1, ![64]⟩ : Shape).Idx → EReal)
    (h : Fin 64) : EReal :=
  (∑ d : Fin 128, xr d * w1 (ix2 h d)) + b1 (ix1 h)

/-- The energy of one node from its feature row `xr` and its incoming energy `a`. -/
def rowEnergy (xr : Fin 128 → EReal) (a : EReal) (w1 : (⟨2, ![64, 128]⟩ : Shape).Idx → EReal)
    (b1 : (⟨1, ![64]⟩ : Shape).Idx → EReal) (w2 : (⟨2, ![1, 64]⟩ : Shape).Idx → EReal)
    (b2 : (⟨1, ![1]⟩ : Shape).Idx → EReal) : EReal :=
  a + ((∑ h : Fin 64, (preact xr w1 b1 h * Ideal.logistic (preact xr w1 b1 h)) * w2 (ix2 (0 : Fin 1) h))
        + b2 (ix1 (0 : Fin 1)))

/-- Node `n`'s energy, read off the whole feature matrix and the whole incoming-energy vector. -/
def node (x : (⟨2, ![500000, 128]⟩ : Shape).Idx → EReal) (ae : (⟨1, ![500000]⟩ : Shape).Idx → EReal)
    (w1 : (⟨2, ![64, 128]⟩ : Shape).Idx → EReal) (b1 : (⟨1, ![64]⟩ : Shape).Idx → EReal)
    (w2 : (⟨2, ![1, 64]⟩ : Shape).Idx → EReal) (b2 : (⟨1, ![1]⟩ : Shape).Idx → EReal) (n : Fin 500000) : EReal :=
  rowEnergy (fun d => x (ix2 n d)) (ae (ix1 n)) w1 b1 w2 b2

/-- All 500000 node energies as one array. -/
def energies (x : (⟨2, ![500000, 128]⟩ : Shape).Idx → EReal) (ae : (⟨1, ![500000]⟩ : Shape).Idx → EReal)
    (w1 : (⟨2, ![64, 128]⟩ : Shape).Idx → EReal) (b1 : (⟨1, ![64]⟩ : Shape).Idx → EReal)
    (w2 : (⟨2, ![1, 64]⟩ : Shape).Idx → EReal) (b2 : (⟨1, ![1]⟩ : Shape).Idx → EReal) :
    (⟨1, ![500000]⟩ : Shape).Idx → EReal :=
  fun i => node x ae w1 b1 w2 b2 (i 0)

theorem energies_ix1 (x : (⟨2, ![500000, 128]⟩ : Shape).Idx → EReal) (ae : (⟨1, ![500000]⟩ : Shape).Idx → EReal)
    (w1 : (⟨2, ![64, 128]⟩ : Shape).Idx → EReal) (b1 : (⟨1, ![64]⟩ : Shape).Idx → EReal)
    (w2 : (⟨2, ![1, 64]⟩ : Shape).Idx → EReal) (b2 : (⟨1, ![1]⟩ : Shape).Idx → EReal) (n : Fin 500000) :
    energies x ae w1 b1 w2 b2 (ix1 n) = node x ae w1 b1 w2 b2 n := rfl

end NodeEnergy

end
-- ==== Proof.KernelIdealRow.lean ====
/-
  One row of the tile.

  The body's value (`k0_pay1`) of a tile of 16384 feature rows, read at row r, is the node energy of that row:
  the matrix product of the tile with the transposed first weights, at (r, h), is the inner product of row r with
  row h of the weights (the changes of float format are the identity on the extended reals, the product into the
  zero accumulator is a plain sum); the bias row is broadcast down the tile; the gate is z * sigma(z); the lane sum
  over the 64 hidden units, the second bias and the incoming energy are added in the order the node energy
  states. In particular entry r of the value depends on row r of the tile and entry r of the incoming energies only.
-/
import proofs.«163737_j44057774522749_1_alg».proof.Proof.Gen.KernelIdeal.Skeleton
import proofs.«163737_j44057774522749_1_alg».proof.Proof.NodeEnergy
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx NodeEnergy
/-- The product's operand indices at a result index: the left operand is read at the result's row and the contracted
    coordinate, the right operand at the contracted coordinate and the result's column. -/
theorem lhs_row (j : S16384x64.Idx) (q : dot_S16384x128_S128x64_S16384x64_1_0_0_1_n_n.contr.Idx) : (dot_S16384x128_S128x64_S16384x64_1_0_0_1_n_n.lhsIdx j q 0).val = (j 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
theorem lhs_col (j : S16384x64.Idx) (q : dot_S16384x128_S128x64_S16384x64_1_0_0_1_n_n.contr.Idx) : (dot_S16384x128_S128x64_S16384x64_1_0_0_1_n_n.lhsIdx j q 1).val = (q ⟨0, by decide⟩).val :=
  dot_S16384x128_S128x64_S16384x64_1_0_0_1_n_n.lhsIdx_val_of_single rfl j q
theorem rhs_row (j : S16384x64.Idx) (q : dot_S16384x128_S128x64_S16384x64_1_0_0_1_n_n.contr.Idx) : (dot_S16384x128_S128x64_S16384x64_1_0_0_1_n_n.rhsIdx j q 0).val = (q ⟨0, by decide⟩).val :=
  dot_S16384x128_S128x64_S16384x64_1_0_0_1_n_n.rhsIdx_val_of_single rfl j q
theorem rhs_col (j : S16384x64.Idx) (q : dot_S16384x128_S128x64_S16384x64_1_0_0_1_n_n.contr.Idx) : (dot_S16384x128_S128x64_S16384x64_1_0_0_1_n_n.rhsIdx j q 1).val = (j 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl

/-- The tile's matrix product at (r, h): the inner product of the left operand's row r with the right operand's column h. -/
theorem product_at (A : FVec Ideal S16384x128 .bf16) (B : FVec Ideal S128x64 .bf16) (r : Fin 16384) (h : Fin 64) :
    matmul dot_S16384x128_S128x64_S16384x64_1_0_0_1_n_n none A B (constant S16384x64 .f32 0x00000000#32) (ix2 r h)
      = ∑ d : Fin 128, A (ix2 r d) * B (ix2 d h) := by
  refine (Ideal.matmul_constant_zero_apply dot_S16384x128_S128x64_S16384x64_1_0_0_1_n_n none A B (ix2 r h)).trans ?_
  rw [← Equiv.sum_comp (contrEquiv1 dot_S16384x128_S128x64_S16384x64_1_0_0_1_n_n 128 rfl rfl).symm]
  refine Finset.sum_congr rfl fun d _ => ?_
  have hk := contrEquiv1_symm_val dot_S16384x128_S128x64_S16384x64_1_0_0_1_n_n 128 rfl rfl d
  have el : dot_S16384x128_S128x64_S16384x64_1_0_0_1_n_n.lhsIdx (ix2 r h) ((contrEquiv1 dot_S16384x128_S128x64_S16384x64_1_0_0_1_n_n 128 rfl rfl).symm d) = ix2 r d := funext fun a => Fin.ext (by
    match a with
    | ⟨0, _⟩ => exact lhs_row _ _
    | ⟨1, _⟩ => exact (lhs_col _ _).trans hk)
  have er : dot_S16384x128_S128x64_S16384x64_1_0_0_1_n_n.rhsIdx (ix2 r h) ((contrEquiv1 dot_S16384x128_S128x64_S16384x64_1_0_0_1_n_n 128 rfl rfl).symm d) = ix2 d h := funext fun a => Fin.ext (by
    match a with
    | ⟨0, _⟩ => exact (rhs_row _ _).trans hk
    | ⟨1, _⟩ => exact rhs_col _ _)
  rw [el, er]

/-- The lane sum of a [16384, 64] tile at row r: the sum of that row's 64 entries. -/
theorem lane_sum_at (V : FVec Ideal S16384x64 .f32) (hφ : FKind.Formats .f32) (hacc : (0x00000000#32 : BitVec 32) = 0x00000000#32)
    (r : Fin 16384) :
    multiReduction .add [1] S16384 V 0x00000000#32 reduces_S16384x64_S16384 hφ hacc (ix1 r) = ∑ k : Fin 64, V (ix2 r k) := by
  refine (Ideal.multiReduction_add_single V 0x00000000#32 reduces_S16384x64_S16384 hφ hacc (ix1 r)).trans ?_
  refine Finset.sum_congr rfl fun k _ => congrArg V (funext fun a => Fin.ext ?_)
  match a with
  | ⟨0, _⟩ => rfl
  | ⟨1, _⟩ => rfl

/-- Entry r of the body's value is the node energy of row r of the tile. -/
theorem pay_row (X : FVec Ideal S16384x128 .f32) (W1 : FVec Ideal S64x128 .f32) (B1 : FVec Ideal S64 .f32)
    (W2 : FVec Ideal S1x64 .f32) (B2 : FVec Ideal S1 .f32) (E : FVec Ideal S16384 .f32) (r : Fin 16384) :
    k0_pay1 (F := Ideal) X W1 B1 W2 B2 E (ix1 r) = rowEnergy (fun d => X (ix2 r d)) (E (ix1 r)) W1 B1 W2 B2 := by
  -- the hidden pre-activation at (r, h)
  have hz : ∀ h : Fin 64,
      addf (matmul dot_S16384x128_S128x64_S16384x64_1_0_0_1_n_n none (truncf .bf16 X bitsLt_bf16_f32)
          (transpose S128x64 [1, 0] (truncf .bf16 W1 bitsLt_bf16_f32) transposes_S64x128_p1_0_S128x64) (constant S16384x64 .f32 0x00000000#32))
        (broadcastTo S16384x64 (shapeCast S1x64 B1 shapeCasts_S64_S1x64) broadcasts_S1x64_S16384x64) (ix2 r h)
      = preact (fun d => X (ix2 r d)) W1 B1 h := fun h => by
    show matmul dot_S16384x128_S128x64_S16384x64_1_0_0_1_n_n none (truncf .bf16 X bitsLt_bf16_f32)
          (transpose S128x64 [1, 0] (truncf .bf16 W1 bitsLt_bf16_f32) transposes_S64x128_p1_0_S128x64) (constant S16384x64 .f32 0x00000000#32) (ix2 r h)
        + broadcastTo S16384x64 (shapeCast S1x64 B1 shapeCasts_S64_S1x64) broadcasts_S1x64_S16384x64 (ix2 r h) = _
    unfold preact
    refine congrArg₂ (· + ·) ?_ ?_
    · refine (product_at _ _ r h).trans (Finset.sum_congr rfl fun d _ => ?_)
      exact congrArg (X (ix2 r d) * ·) (transpose_ix2_apply (truncf .bf16 W1 bitsLt_bf16_f32) transposes_S64x128_p1_0_S128x64 d h)
    · exact (broadcastTo_1b_ab_apply _ broadcasts_S1x64_S16384x64 r h).trans (shapeCast_a_1a_apply B1 shapeCasts_S64_S1x64 0 h)
  -- the second layer's weight at (r, h)
  have hw : ∀ h : Fin 64,
      broadcastTo S16384x64 (shapeCast S1x64 (shapeCast S64 W2 shapeCasts_S1x64_S64) shapeCasts_S64_S1x64) broadcasts_S1x64_S16384x64 (ix2 r h)
        = W2 (ix2 (0 : Fin 1) h) := fun h =>
    ((broadcastTo_1b_ab_apply _ broadcasts_S1x64_S16384x64 r h).trans
      (shapeCast_a_1a_apply (shapeCast S64 W2 shapeCasts_S1x64_S64) shapeCasts_S64_S1x64 0 h)).trans
      (shapeCast_1a_a_apply W2 shapeCasts_S1x64_S64 h)
  -- the second bias
  have hb : extractAt ![0] B2 inpos_S1_p0 = B2 (ix1 (0 : Fin 1)) :=
    congrArg B2 (funext fun a => Fin.ext (by match a with | ⟨0, _⟩ => rfl))
  unfold k0_pay1 rowEnergy
  show E (ix1 r) + (multiReduction .add [1] S16384 _ 0x00000000#32 reduces_S16384x64_S16384 (.inl rfl) rfl (ix1 r) + extractAt ![0] B2 inpos_S1_p0) = _
  rw [lane_sum_at, hb]
  refine congrArg (E (ix1 r) + ·) (congrArg (· + B2 (ix1 (0 : Fin 1))) (Finset.sum_congr rfl fun h _ => ?_))
  exact congrArg₂ (· * ·) (congrArg₂ (· * ·) (hz h) (congrArg Ideal.logistic (hz h))) (hw h)

end Cert.KernelIdeal.Row

end
-- ==== Proof.KernelIdealRun.lean ====
/-
  The idealized kernel, tile by tile.

  The node axis (500000 rows) is cut into 31 tiles of 16384 rows; the last tile has only 8480 rows inside the
  arrays. At tile t the body is handed the feature tile and the incoming-energy tile as just fetched — on the rows
  inside the arrays the arrays' own rows, past the arrays' end anything —, and the four small parameter arrays whole;
  it leaves the output tile at its value of those. Entry r of that value is the node energy of row r of the feature
  tile and entry r of the incoming energies (KernelIdealRow), so on the rows inside the arrays it does not depend on
  what lies past the arrays' end: this is what lets the output tile be NAMED although the fetched tiles are not.
  The proof data names every tile with zeros past the arrays' end; the body's triple is KernelIdealTile's.
-/
import proofs.«163737_j44057774522749_1_alg».proof.Proof.KernelIdealTile
import proofs.«163737_j44057774522749_1_alg».proof.Proof.KernelIdealRow
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Tile Cert.KernelIdeal.Row
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx NodeEnergy

local notation "𝕄" => MT nD τ sig Unit (Elt Ideal) ℕ (UR sig nD τ) ℕ

variable (m : (ℓ : Loc nD τ sig) → Buf (Elt Ideal) ℓ) (ρ : Dev nD → PrngReg)

/-! ## Entry r of the output tile -/

theorem hz2 : (![0, 0] : Fin 2 → Nat) = fun _ => 0 := funext fun a => by fin_cases a <;> rfl
theorem hz1 : (![0] : Fin 1 → Nat) = fun _ => 0 := funext fun a => by fin_cases a; rfl

/-- Entry r of what the body leaves in the output tile is the node energy of row r of the feature tile. -/
theorem tileOut_apply (X : FVec Ideal S16384x128 .f32) (E : FVec Ideal S16384 .f32) (W1 : FVec Ideal S64x128 .f32)
    (B1 : FVec Ideal S64 .f32) (W2 : FVec Ideal S1x64 .f32) (B2 : FVec Ideal S1 .f32) (r : Fin 16384) :
    tileOut (F := Ideal) X E W1 B1 W2 B2 (ix1 r) = rowEnergy (fun d => X (ix2 r d)) (E (ix1 r)) W1 B1 W2 B2 := by
  unfold tileOut
  rw [View.canon_unit_zero hz1]
  simp only [View.ld_unit_zero (S := S16384x128) hz2, View.ld_unit_zero (S := S64x128) hz2, View.ld_unit_zero (S := S64) hz1,
    View.ld_unit_zero (S := S1x64) hz2, View.ld_unit_zero (S := S1) hz1, View.ld_unit_zero (S := S16384) hz1]
  exact pay_row X W1 B1 W2 B2 E r

/-- On the rows inside the arrays the output tile depends only on the rows inside the arrays of the feature tile
    and of the incoming energies. -/
theorem cut_tileOut (i : grid0.Coords) (X X' : FVec Ideal S16384x128 .f32) (E E' : FVec Ideal S16384 .f32)
    (W1 : FVec Ideal S64x128 .f32) (B1 : FVec Ideal S64 .f32) (W2 : FVec Ideal S1x64 .f32) (B2 : FVec Ideal S1 .f32)
    (hX : win0_0.cut i X = win0_0.cut i X') (hE : win0_1.cut i E = win0_1.cut i E') :
    win0_6.cut i (tileOut (F := Ideal) X E W1 B1 W2 B2) = win0_6.cut i (tileOut (F := Ideal) X' E' W1 B1 W2 B2) := by
  funext j
  have hr : (j 0).val < 16384 := Nat.lt_of_lt_of_le (j 0).isLt (win0_6.xsize_le i 0)
  have ej : win0_6.xinj i j = ix1 (⟨(j 0).val, hr⟩ : Fin 16384) := funext fun a => Fin.ext (by match a with | ⟨0, _⟩ => rfl)
  show tileOut (F := Ideal) X E W1 B1 W2 B2 (win0_6.xinj i j) = tileOut (F := Ideal) X' E' W1 B1 W2 B2 (win0_6.xinj i j)
  rw [ej, tileOut_apply, tileOut_apply]
  have hj0 : (j 0).val < win0_0.xsize i 0 := (j 0).isLt
  have hj1 : (j 0).val < win0_1.xsize i 0 := (j 0).isLt
  have hXr : ∀ d : Fin 128, X (ix2 (⟨(j 0).val, hr⟩ : Fin 16384) d) = X' (ix2 (⟨(j 0).val, hr⟩ : Fin 16384) d) := fun d => by
    have hd : d.val < win0_0.xsize i 1 := d.isLt
    have e' : win0_0.xinj i (fun a => match a with | ⟨0, _⟩ => ⟨(j 0).val, hj0⟩ | ⟨1, _⟩ => ⟨d.val, hd⟩)
        = ix2 (⟨(j 0).val, hr⟩ : Fin 16384) d := funext fun a => Fin.ext (by match a with | ⟨0, _⟩ => rfl | ⟨1, _⟩ => rfl)
    have h := congrFun hX (fun a => match a with | ⟨0, _⟩ => ⟨(j 0).val, hj0⟩ | ⟨1, _⟩ => ⟨d.val, hd⟩)
    change X (win0_0.xinj i _) = X' (win0_0.xinj i _) at h
    rw [e'] at h; exact h
  have hEr : E (ix1 (⟨(j 0).val, hr⟩ : Fin 16384)) = E' (ix1 (⟨(j 0).val, hr⟩ : Fin 16384)) := by
    have e' : win0_1.xinj i (fun a => match a with | ⟨0, _⟩ => ⟨(j 0).val, hj1⟩)
        = ix1 (⟨(j 0).val, hr⟩ : Fin 16384) := funext fun a => Fin.ext (by match a with | ⟨0, _⟩ => rfl)
    have h := congrFun hE (fun a => match a with | ⟨0, _⟩ => ⟨(j 0).val, hj1⟩)
    change E (win0_1.xinj i _) = E' (win0_1.xinj i _) at h
    rw [e'] at h; exact h
  rw [hEr, funext hXr]

/-! ## The proof data -/

/-- The feature tile at point t: the matrix's rows of the tile, zeros past the matrix's end. -/
def tileX (c : Dev nD) (t : Fin cfg0.N) : S16384x128.Idx → Elt Ideal .f32 :=
  win0_0.fill (grid0.coords t) (fun _ => Scalar.ofBits (F := Ideal) .f32 0#32) (iblk m c 0 t)
/-- The incoming energies of the tile, zeros past the vector's end. -/
def tileE (c : Dev nD) (t : Fin cfg0.N) : S16384.Idx → Elt Ideal .f32 :=
  win0_1.fill (grid0.coords t) (fun _ => Scalar.ofBits (F := Ideal) .f32 0#32) (iblk m c 1 t)

/-- The proof data: the arrays as the region finds them; after the body at point t the two tiled inputs at their
    tiles, the four parameter arrays at their (whole) blocks, the output at the body's value of those. -/
def dats (_ : Fin 1) (c : Dev nD) : Dat τ (Elt Ideal) Unit ℕ (UR sig nD τ) ℕ cfg0 c where
  A w := V m c (Pipeline.arrRef spec0 w)
  after w t := match w with
    | ⟨0, _⟩ => tileX m c t
    | ⟨1, _⟩ => tileE m c t
    | ⟨2, _⟩ => iblk m c 2 t
    | ⟨3, _⟩ => iblk m c 3 t
    | ⟨4, _⟩ => iblk m c 4 t
    | ⟨5, _⟩ => iblk m c 5 t
    | ⟨6, _⟩ => tileOut (F := Ideal) (tileX m c t) (tileE m c t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = tileX m c t := by dsimp only [dats]
theorem after0_1 (c : Dev nD) (t : Fin cfg0.N) : (dats m 0 c).after 1 t = tileE m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = tileOut (F := Ideal) (tileX m c t) (tileE m c t) (iblk m c 2 t) (iblk m c 3 t) (iblk m c 4 t) (iblk m c 5 t) := by dsimp only [dats]

/-- The two tiled inputs are fetched at every point: the tile's rows inside the array, anything past its end. -/
theorem before0_0 (c : Dev nD) (t : Fin cfg0.N) (d) :
    (dats m 0 c).before 0 t d = win0_0.fill (grid0.coords t) d (iblk m c 0 t) := by
  rw [(dats m 0 c).before_fetched 0 t (fetch0_0 t) d]; rfl
theorem before0_1 (c : Dev nD) (t : Fin cfg0.N) (d) :
    (dats m 0 c).before 1 t d = win0_1.fill (grid0.coords t) d (iblk m c 1 t) := by
  rw [(dats m 0 c).before_fetched 1 t (fetch0_1 t) d]; rfl
/-- The parameter arrays' buffers hold them at every point, fetched there or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- The output tile's buffer is fresh at every point (the point before wrote it back). -/
theorem before0_6 (c : Dev nD) (t : Fin cfg0.N) (d) : (dats m 0 c).before 6 t d = d :=
  (dats m 0 c).before_out_reset 6 rfl t
    ((Nat.eq_zero_or_pos t.val).imp id fun hp => ⟨Nat.pos_iff_ne_zero.mp hp, flush0_6 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare (win0_6.fill (grid0.coords t) d (win0_6.cut (grid0.coords t) ((dats m 0 c).after 6 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := Ideal) c Set.univ (grid0.coords t) _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have hx : win0_0.cut (grid0.coords t) (tileX m c t) = iblk m c 0 t := win0_0.cut_fill _ _ _
  have he : win0_1.cut (grid0.coords t) (tileE m c t) = iblk m c 1 t := win0_1.cut_fill _ _ _
  isplitl [H0]
  · iexists d0; rw [hx]; iexact H0
  isplitl [H1]
  · iexists d1; rw [he]; iexact H1
  isplitl [H2]; · iexact H2
  isplitl [H3]; · iexact H3
  isplitl [H4]; · iexact H4
  isplitl [H5]; · iexact H5
  iexists (tileOut (F := Ideal) (win0_0.fill (grid0.coords t) d0 (iblk m c 0 t)) (win0_1.fill (grid0.coords t) d1 (iblk m c 1 t))
    (iblk m c 2 t) (iblk m c 3 t) (iblk m c 4 t) (iblk m c 5 t))
  rw [← cut_tileOut (grid0.coords t) (win0_0.fill (grid0.coords t) d0 (iblk m c 0 t)) (tileX m c t)
      (win0_1.fill (grid0.coords t) d1 (iblk m c 1 t)) (tileE m c t) (iblk m c 2 t) (iblk m c 3 t) (iblk m c 4 t) (iblk m c 5 t)
      ((win0_0.cut_fill _ _ _).trans hx.symm) ((win0_1.cut_fill _ _ _).trans he.symm),
    win0_6.fill_cut]
  iexact H6

theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the idealized kernel terminates; every array of the call ends at what the proof
    data computes, every other buffer as the lines after the call leave it. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Run

end
-- ==== Proof.KernelIdealValue.lean ====
/-
  What the idealized kernel's two results hold.

  Tile t of the output covers nodes 16384 t, ..., 16384 t + (rows of the tile inside the array) - 1, and what point t
  writes back there is, entry by entry, the node energy of the corresponding rows of the feature matrix and the
  incoming energies: row r of the fetched tile IS row 16384 t + r of the matrix, the parameter blocks ARE the
  parameter arrays. The 31 tiles cover all 500000 nodes (node n lies in tile n / 16384), so the first result ends
  at `NodeEnergy.energies` of the arguments. The lines after the call then sum those energies into their segments;
  that sum is left as the program spells it, applied to the energies.
-/
import proofs.«163737_j44057774522749_1_alg».proof.Proof.KernelIdealRun
import Idealize.ShloMosaic.Lib.StableHlo.Run
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Tile Cert.KernelIdeal.Row
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation BodyObligationLoose cellOf)
open Idealize.ShloMosaic.ValueIdx NodeEnergy

variable (m : (ℓ : Loc nD τ sig) → Buf (Elt Ideal) ℓ) (ρ : Dev nD → PrngReg)

/-- The node energies of the arguments as the call finds them. -/
def nodeEnergies (c : Dev nD) : S500000.Idx → Elt Ideal .f32 :=
  energies (V m c main_arg0) (V m c main_arg1) (V m c main_arg3) (V m c main_arg4) (V m c main_arg5) (V m c main_arg6)

/-- The printed index maps and the cut of the output tile, decided over the 31 points: tile t of the three tiled
    windows starts at row 16384 t, the parameter windows are whole, and the rows of tile t inside the array are
    16384 of them or exactly those up to the array's end. -/
theorem tile_facts : ∀ t : Fin cfg0.N,
    win0_6.index t (0 : Fin 1) = t.val
    ∧ win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.xsize (grid0.coords t) (0 : Fin 1) ≤ 16384
    ∧ t.val * 16384 + win0_6.xsize (grid0.coords t) (0 : Fin 1) ≤ 500000
    ∧ (win0_6.xsize (grid0.coords t) (0 : Fin 1) = 16384 ∨ t.val * 16384 + win0_6.xsize (grid0.coords t) (0 : Fin 1) = 500000) :=
  (by decide +kernel : ∀ t : Fin grid0.N, _)

/-- The parameter blocks are the parameter arrays. -/
theorem blk_w1 (c : Dev nD) (t : Fin cfg0.N) : (iblk m c 2 t : S64x128.Idx → Elt Ideal .f32) = V m c main_arg3 := by
  obtain ⟨-, -, -, -, e0, e1, -⟩ := tile_facts t
  funext y
  show V m c main_arg3 (((cfg0.win 2).blk t).view.emb y) = V m c main_arg3 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 128 + 1 * (y 1).val = (y 1).val; omega
theorem blk_b1 (c : Dev nD) (t : Fin cfg0.N) : (iblk m c 3 t : S64.Idx → Elt Ideal .f32) = V m c main_arg4 := by
  obtain ⟨-, -, -, -, -, -, e0, -⟩ := tile_facts t
  funext y
  show V m c main_arg4 (((cfg0.win 3).blk t).view.emb y) = V m c main_arg4 y
  refine congrArg _ (funext fun a => Fin.ext ?_)
  match a with
  | ⟨0, _⟩ => show win0_3.index t (0 : Fin 1) * 64 + 1 * (y 0).val = (y 0).val; omega
theorem blk_w2 (c : Dev nD) (t : Fin cfg0.N) : (iblk m c 4 t : S1x64.Idx → Elt Ideal .f32) = V m c main_arg5 := by
  obtain ⟨-, -, -, -, -, -, -, e0, e1, -⟩ := tile_facts t
  funext y
  show V m c main_arg5 (((cfg0.win 4).blk t).view.emb y) = V m c main_arg5 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega
theorem blk_b2 (c : Dev nD) (t : Fin cfg0.N) : (iblk m c 5 t : S1.Idx → Elt Ideal .f32) = V m c main_arg6 := by
  obtain ⟨-, -, -, -, -, -, -, -, -, e0, -⟩ := tile_facts t
  funext y
  show V m c main_arg6 (((cfg0.win 5).blk t).view.emb y) = V m c main_arg6 y
  refine congrArg _ (funext fun a => Fin.ext ?_)
  match a with
  | ⟨0, _⟩ => show win0_5.index t (0 : Fin 1) * 1 + 1 * (y 0).val = (y 0).val; omega

/-- WHAT POINT t WRITES BACK is tile t of the node energies. -/
theorem flushed_eq (c : Dev nD) (t : Fin cfg0.N) :
    (dats m 0 c).flushed 6 t = ((cfg0.win 6).blk t).view.read (Elt Ideal) (nodeEnergies m c) := by
  show (cfg0.win 6).cut (grid0.coords t) ((dats m 0 c).after 6 t) = _
  rw [after0_6, blk_w1, blk_b1, blk_w2, blk_b2]
  obtain ⟨e6, e00, e01, e1, -, -, -, -, -, -, ex0, ex1, -⟩ := tile_facts t
  funext j
  have hj : (j 0).val < win0_6.xsize (grid0.coords t) (0 : Fin 1) := (j 0).isLt
  have hr : (j 0).val < 16384 := Nat.lt_of_lt_of_le hj ex0
  have hn : t.val * 16384 + (j 0).val < 500000 := by omega
  have ej : win0_6.xinj (grid0.coords t) j = ix1 (⟨(j 0).val, hr⟩ : Fin 16384) := funext fun a => Fin.ext (by match a with | ⟨0, _⟩ => rfl)
  have en : ((cfg0.win 6).blk t).view.emb j = ix1 (⟨t.val * 16384 + (j 0).val, hn⟩ : Fin 500000) := funext fun a => Fin.ext (by
    match a with
    | ⟨0, _⟩ => show win0_6.index t (0 : Fin 1) * 16384 + 1 * (j 0).val = t.val * 16384 + (j 0).val; omega)
  show tileOut (F := Ideal) (tileX m c t) (tileE m c t) (V m c main_arg3) (V m c main_arg4) (V m c main_arg5) (V m c main_arg6) (win0_6.xinj (grid0.coords t) j)
    = nodeEnergies m c (((cfg0.win 6).blk t).view.emb j)
  rw [ej, en, tileOut_apply]
  unfold nodeEnergies
  rw [energies_ix1]
  unfold node
  -- row r of the fetched tiles is row 16384 t + r of the arrays
  have hj0 : (j 0).val < win0_0.xsize (grid0.coords t) 0 := hj
  have hj1 : (j 0).val < win0_1.xsize (grid0.coords t) 0 := hj
  have hX : ∀ d : Fin 128, tileX m c t (ix2 (⟨(j 0).val, hr⟩ : Fin 16384) d)
      = V m c main_arg0 (ix2 (⟨t.val * 16384 + (j 0).val, hn⟩ : Fin 500000) d) := fun d => by
    have hd : d.val < win0_0.xsize (grid0.coords t) 1 := d.isLt
    have e' : win0_0.xinj (grid0.coords t) (fun a => match a with | ⟨0, _⟩ => ⟨(j 0).val, hj0⟩ | ⟨1, _⟩ => ⟨d.val, hd⟩)
        = ix2 (⟨(j 0).val, hr⟩ : Fin 16384) d := funext fun a => Fin.ext (by match a with | ⟨0, _⟩ => rfl | ⟨1, _⟩ => rfl)
    unfold tileX
    rw [← e', win0_0.fill_xinj]
    show V m c main_arg0 (((cfg0.win 0).blk t).view.emb _) = _
    refine congrArg _ (funext fun a => Fin.ext ?_)
    match a with
    | ⟨0, _⟩ => show win0_0.index t (0 : Fin 2) * 16384 + 1 * (j 0).val = t.val * 16384 + (j 0).val; omega
    | ⟨1, _⟩ => show win0_0.index t (1 : Fin 2) * 128 + 1 * d.val = d.val; omega
  have hE : tileE m c t (ix1 (⟨(j 0).val, hr⟩ : Fin 16384)) = V m c main_arg1 (ix1 (⟨t.val * 16384 + (j 0).val, hn⟩ : Fin 500000)) := by
    have e' : win0_1.xinj (grid0.coords t) (fun a => match a with | ⟨0, _⟩ => ⟨(j 0).val, hj1⟩)
        = ix1 (⟨(j 0).val, hr⟩ : Fin 16384) := funext fun a => Fin.ext (by match a with | ⟨0, _⟩ => rfl)
    unfold tileE
    rw [← e', win0_1.fill_xinj]
    show V m c main_arg1 (((cfg0.win 1).blk t).view.emb _) = _
    refine congrArg _ (funext fun a => Fin.ext ?_)
    match a with
    | ⟨0, _⟩ => show win0_1.index t (0 : Fin 1) * 16384 + 1 * (j 0).val = t.val * 16384 + (j 0).val; omega
  rw [hE, funext hX]

/-- An index of the output array is in tile t iff it is among the tile's rows inside the array. -/
theorem mem_blk (t : Fin cfg0.N) (i : S500000.Idx) :
    i ∈ ((cfg0.win 6).blk t).view.set ↔ ∀ a : Fin 1, win0_6.index t a * S16384.size a ≤ (i a).val
      ∧ (i a).val < win0_6.index t a * S16384.size a + win0_6.xsize (grid0.coords t) a := by
  show i ∈ ((View.whole main_v0).slice (win0_6.rect t)).set ↔ _
  rw [View.set_slice_whole, Rect.mem_set_unit]
  exact Iff.rfl

/-- Every node lies in some tile: node n in tile n / 16384. -/
theorem covered (i : S500000.Idx) : ∃ t : Fin cfg0.N, (cfg0.win 6).flush t = true ∧ i ∈ ((cfg0.win 6).blk t).view.set := by
  have hi : (i 0).val < 500000 := (i 0).isLt
  have hq : (i 0).val / 16384 < grid0.N := by rw [N_0]; omega
  refine ⟨⟨(i 0).val / 16384, hq⟩, flush0_6 _, ?_⟩
  rw [mem_blk]
  obtain ⟨e6, -, -, -, -, -, -, -, -, -, ex0, ex1, ex2⟩ := tile_facts ⟨(i 0).val / 16384, hq⟩
  have htv : (⟨(i 0).val / 16384, hq⟩ : Fin cfg0.N).val = (i 0).val / 16384 := rfl
  intro a
  match a with
  | ⟨0, _⟩ =>
    show win0_6.index ⟨(i 0).val / 16384, hq⟩ (0 : Fin 1) * 16384 ≤ (i 0).val
      ∧ (i 0).val < win0_6.index ⟨(i 0).val / 16384, hq⟩ (0 : Fin 1) * 16384 + win0_6.xsize (grid0.coords ⟨(i 0).val / 16384, hq⟩) (0 : Fin 1)
    omega

/-- THE FIRST RESULT after the run: the node energies. -/
theorem final_energies (c : Dev nD) : (dats m 0 c).arrAt 6 cfg0.N = nodeEnergies m c :=
  (dats m 0 c).arrAt_eq_of_cover 6 (nodeEnergies m c) (fun t _ => flushed_eq m c t) (covered)

end Cert.KernelIdeal.Run

end
-- ==== Proof.KernelIdealResults.lean ====
/-
  The idealized kernel's run, both results named.

  After the call the program zero-fills a 16384-entry vector and adds every node's energy into the entry its
  segment index names. Read back, the second result is that scatter-sum applied to the first result, which is the
  array of node energies; the segment indices are the third argument, which no line writes. The arguments end as
  they were launched.
-/
import proofs.«163737_j44057774522749_1_alg».proof.Proof.KernelIdealValue
import Idealize.ShloMosaic.Lib.StableHlo.Run
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window cellOf)
open NodeEnergy

variable (m : (ℓ : Loc nD τ sig) → Buf (Elt Ideal) ℓ) (ρ : Dev nD → PrngReg)

/-- The per-segment sums of given node energies, as the program's last lines spell them. -/
def segmentSums (c : Dev nD) (e : S500000.Idx → Elt Ideal .f32) : S16384.Idx → Elt Ideal .f32 :=
  Host.scatterAdd (F := Ideal) scatter_S16384_S500000x1_S500000_n_0_0_1
    (broadcastInDim S16384 ![] bcast_S_S16384 (constant (F := Ideal) S_ .f32 0x00000000#32))
    (broadcastInDim S500000x1 ![0] bcast_S500000_S500000x1_0 (m ((c : Thread nD τ).loc main_arg2)))
    e

/-- THE SECOND RESULT after the run: the per-segment sums of the node energies. -/
theorem tail_sums (c : Dev nD) :
    Pipeline.afterTail₀ cfgs (dats m) 0 (V0 m) [hostOps1] c main_v3 = segmentSums m c (nodeEnergies m c) := by
  unfold Pipeline.afterTail₀
  show StableHlo.after hostOps1 _ (Proc.devRef .tc main_v3) = _
  after_results
  have e0 : Pipeline.withArrays (cfgs 0).spec c (V0 m c) (fun w => (dats m 0 c).arrAt w (cfgs 0).N) (Proc.devRef .tc main_v0)
      = nodeEnergies m c :=
    (Pipeline.withArrays_arr spec0 launch0.win.arr_inj c (V0 m c) (fun w => (dats m 0 c).arrAt w (cfgs 0).N) 6).trans (final_energies m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  rw [e0, e2]
  rfl

/-- THE RUN, both results named: the node energies and their per-segment sums; the arguments as launched. -/
theorem run : θ_run defs (onTc (τ := τ) (main (F := Ideal))) ⟨m, fun _ => 0, ρ⟩ fun r => ∀ c : Dev nD,
      r.2.mem ((c.tc : Thread nD τ).loc main_v0) = nodeEnergies m c
      ∧ r.2.mem ((c.tc : Thread nD τ).loc main_v3) = segmentSums m c (nodeEnergies m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 6).trans (final_energies m c),
      ((h c).2 main_v3 (Pipeline.mem_restRefs_of main_v3 (by decide) (by decide))).trans (tail_sums m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c)))⟩)
    (run_main m ρ)

end Cert.KernelIdeal.Run

end
-- ==== Proof.ReferenceEnergies.lean ====
/-
  The reference computes the node energies.

  Read one operation at a time, the plain-jnp program forms, for node n and hidden unit h, the inner product of
  the node's row with row h of the first weights plus the bias; gates it by z * (1 / (1 + exp(-z))), which is
  z * sigma(z) with sigma the logistic function once the pattern of 1.0 is read as the number 1; contracts the 64 gated
  values with the second layer's row, adds its bias, drops the trailing unit axis, and adds the incoming energy.
  Index by index that is `NodeEnergy.energies`.
-/
import proofs.«163737_j44057774522749_1_alg».proof.Proof.Gen.ReferenceIdeal.Read
import proofs.«163737_j44057774522749_1_alg».proof.Proof.NodeEnergy

noncomputable section

namespace Cert.ReferenceIdeal.NodeValue

open Cert.ReferenceIdeal Cert.ReferenceIdeal.Read Idealize.ShloMosaic Idealize.ShloMosaic.ValueIdx NodeEnergy

/-- The reference's first result is the array of node energies. -/
theorem reference_energies (x0 : (⟨S500000x128, .f32⟩ : BufTy).Contents (Elt Ideal)) (x1 : (⟨S500000, .f32⟩ : BufTy).Contents (Elt Ideal))
    (x3 : (⟨S64x128, .f32⟩ : BufTy).Contents (Elt Ideal)) (x4 : (⟨S64, .f32⟩ : BufTy).Contents (Elt Ideal))
    (x5 : (⟨S1x64, .f32⟩ : BufTy).Contents (Elt Ideal)) (x6 : (⟨S1, .f32⟩ : BufTy).Contents (Elt Ideal)) :
    val_main_v10 (F := Ideal) x0 x1 x3 x4 x5 x6 = energies x0 x1 x3 x4 x5 x6 := by
  funext i
  obtain ⟨n, rfl⟩ : ∃ n : Fin 500000, i = ix1 n := ⟨i 0, eq_ix1 i⟩
  rw [energies_ix1]
  -- the composed index maps, at node n and hidden unit k
  have e9 : ∀ k : Fin 64, lidx_main_v5 (idx_main_v9 (ix1 n)) k = ix2 n k := fun k => funext fun a => Fin.ext (by
    match a with
    | ⟨0, _⟩ => exact Nat.div_one _
    | ⟨1, _⟩ => rfl)
  have e5 : ∀ k : Fin 64, ridx_main_v5 (idx_main_v9 (ix1 n)) k = ix2 (0 : Fin 1) k := fun k => funext fun a => Fin.ext (by
    match a with
    | ⟨0, _⟩ => rfl
    | ⟨1, _⟩ => rfl)
  have e0l : ∀ (k : Fin 64) (d : Fin 128), lidx_main_v0 (ix2 n k) d = ix2 n d := fun k d => funext fun a => Fin.ext (by
    match a with
    | ⟨0, _⟩ => rfl
    | ⟨1, _⟩ => rfl)
  have e0r : ∀ (k : Fin 64) (d : Fin 128), ridx_main_v0 (ix2 n k) d = ix2 k d := fun k d => funext fun a => Fin.ext (by
    match a with
    | ⟨0, _⟩ => rfl
    | ⟨1, _⟩ => rfl)
  have e1 : ∀ k : Fin 64, idx_main_v1 (idx_main_v2 (ix2 n k)) = ix1 k := fun k => funext fun a => Fin.ext (by
    match a with
    | ⟨0, _⟩ => rfl)
  have e6 : idx_main_v6 (idx_main_v7 (idx_main_v9 (ix1 n))) = ix1 (0 : Fin 1) := funext fun a => Fin.ext (by
    match a with
    | ⟨0, _⟩ => rfl)
  -- one hidden pre-activation
  have hz : ∀ k : Fin 64, val_main_v3 (F := Ideal) x0 x3 x4 (ix2 n k) = preact (fun d => x0 (ix2 n d)) x3 x4 k := fun k => by
    rw [val_main_v3_apply, val_main_v0_apply, val_main_v2_apply, val_main_v1_apply, e1]
    simp only [e0l, e0r, Ideal.addf_def]
    rfl
  -- the gate
  have hg : ∀ k : Fin 64, val_main_v4 (F := Ideal) x0 x3 x4 (ix2 n k)
      = preact (fun d => x0 (ix2 n d)) x3 x4 k * Ideal.logistic (preact (fun d => x0 (ix2 n d)) x3 x4 k) := fun k => by
    rw [val_main_v4_apply, val_main_call0_v5_apply, val_main_call0_v4_apply, val_main_call0_cst_0_apply,
      val_main_call0_v3_apply, val_main_call0_v2_apply, val_main_call0_cst_apply, val_main_call0_v1_apply,
      val_main_call0_v0_apply, hz]
    simp only [Ideal.mulf_def, Ideal.hostDivf_def, Ideal.addf_def, Ideal.hostUnary_exp_def, Ideal.hostNegf_def,
      Ideal.negf_def, Ideal.ofBits_def, ofBits_one]
    rfl
  rw [val_main_v10_apply, val_main_v9_apply, val_main_v8_apply, val_main_v5_apply, val_main_v7_apply, val_main_v6_apply, e6]
  simp only [e9, e5, hg, Ideal.addf_def]
  rfl

end Cert.ReferenceIdeal.NodeValue

end
-- ==== Proof.lean ====
/-
  The claims.

  A molecular-energy readout: every one of 500000 nodes carries 128 features and an incoming energy; a two-layer
  perceptron (128 -> 64, SiLU, 64 -> 1) maps the features to a correction that is added to the incoming energy, and
  the corrected energies are summed into 16384 segments named by a per-node index.

  The kernel computes the corrected energies tile by tile (31 tiles of 16384 nodes, the last reaching past the arrays'
  end) and the reference in one piece; on the extended reals both are, node by node, the same expression with the same
  grouping of its sums (`NodeEnergy.energies`): a change of float format is the identity there, the tile's matrix
  product into a zero accumulator and the reference's contraction are the same finite sum, and the logistic function
  is 1 / (1 + exp(-z)) on both sides. The segment sums are the same scatter-sum applied to equal energies and equal
  indices. No law that needs finite inputs is used.

  The three frames: the word-level kernel's with its output tile left unnamed (KernelRun), the idealized kernel's read
  off the run that names both results (KernelIdealResults), the reference's off its run. The idealization rewrote
  nothing, so there is nothing to preserve.
-/
import proofs.«163737_j44057774522749_1_alg».proof.Defs
import proofs.«163737_j44057774522749_1_alg».proof.Proof.Gen.Kernel
import proofs.«163737_j44057774522749_1_alg».proof.Proof.Gen.Kernel.Skeleton
import proofs.«163737_j44057774522749_1_alg».proof.Proof.Gen.Kernel.Launch
import proofs.«163737_j44057774522749_1_alg».proof.Proof.Gen.Kernel.Points
import proofs.«163737_j44057774522749_1_alg».proof.Proof.Gen.Kernel.Frame
import proofs.«163737_j44057774522749_1_alg».proof.Proof.Gen.KernelIdeal
import proofs.«163737_j44057774522749_1_alg».proof.Proof.Gen.KernelIdeal.Skeleton
import proofs.«163737_j44057774522749_1_alg».proof.Proof.Gen.KernelIdeal.Launch
import proofs.«163737_j44057774522749_1_alg».proof.Proof.Gen.KernelIdeal.Points
import proofs.«163737_j44057774522749_1_alg».proof.Proof.Gen.KernelIdeal.Frame
import proofs.«163737_j44057774522749_1_alg».proof.Proof.Gen.ReferenceIdeal
import proofs.«163737_j44057774522749_1_alg».proof.Proof.Gen.ReferenceIdeal.Run
import proofs.«163737_j44057774522749_1_alg».proof.Proof.Gen.ReferenceIdeal.Read
import proofs.«163737_j44057774522749_1_alg».proof.Proof.Gen.Pre_finite_inputs
import proofs.«163737_j44057774522749_1_alg».proof.Proof.KernelRun
import proofs.«163737_j44057774522749_1_alg».proof.Proof.KernelIdealResults
import proofs.«163737_j44057774522749_1_alg».proof.Proof.ReferenceEnergies
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel (hKernel := Cert.Kernel.Gen.facts) (hPre_finite_inputs := Cert.Pre_finite_inputs.Gen.facts) :=
  fun m ρ _ => Cert.Kernel.Run.frame (F := Bits) m ρ

/-- So does the idealized kernel: its run with both results named, the results dropped. -/
theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2.2) (Cert.KernelIdeal.Run.run m ρ)

/-- And the reference: its run, the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From agreeing arguments both programs end with the node energies and their per-segment sums. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.nodeEnergies m c,
    fun c => Cert.KernelIdeal.Run.segmentSums m c (Cert.KernelIdeal.Run.nodeEnergies m c),
    Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    refine (Cert.ReferenceIdeal.NodeValue.reference_energies (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_
    rw [h0, h1, h3, h4, h5, h6]
    rfl
  · obtain ⟨h0, h1, h2, h3, h4, h5, h6⟩ := hagree c
    refine (congrArg (Host.scatterAdd (F := Ideal) Cert.ReferenceIdeal.scatter_S16384_S500000x1_S500000_n_0_0_1 _ _)
      (Cert.ReferenceIdeal.NodeValue.reference_energies (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))).trans ?_
    rw [h0, h1, h2, h3, h4, h5, h6]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
